-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x128 : Shape := ⟨2, ![2048, 128]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 11
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .local _ .vmem, ⟨0, _⟩ => ⟨S2048x128, .f32⟩
  | .local _ .vmem, ⟨1, _⟩ => ⟨S2048x128, .f32⟩
  | .local _ .vmem, ⟨2, _⟩ => ⟨S8192x128, .f32⟩
  | .local _ .vmem, ⟨3, _⟩ => ⟨S2048x1, .f32⟩
  | .local _ .vmem, ⟨4, _⟩ => ⟨S2048x1, .f32⟩
  | .local _ .vmem, ⟨5, _⟩ => ⟨S1x2048, .f32⟩
  | .local _ .vmem, ⟨6, _⟩ => ⟨S1x2048, .f32⟩
  | .local _ .vmem, ⟨7, _⟩ => ⟨S2048x2048, .f32⟩
  | .local _ .vmem, ⟨8, _⟩ => ⟨S2048x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  h_S2048x128 : 0 < S2048x128.numel
  inb_S2048x128_S2048x128_0_0 : ∀ a, (![0, 0] : Fin 2 → Nat) a + S2048x128.size a ≤ S2048x128.size a
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S2048x128_S2048x128_S2048x2048_1_1_0_0_n_n_wf : DotDims.WF S2048x128 S2048x128 S2048x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x8192.size a
  hwx0_4 : ∀ i : grid0.Coords, EltTy.bits .f32 = 32 ∨ (Rect.block (s := S8192x8192) S2048x2048.size (cc0_transform_4 i) (hinb0_4 i)).WholeWords (EltTy.packing .f32)

variable [Facts₀]

def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.NegDist.lean ====
/-
  The negated Euclidean distance between every point of one set and every point of another, as ONE function of
  the two coordinate arrays, index by index, on the extended reals.

  For points `a_p` and `b_q` in 128 coordinates the squared distance is expanded as
  `|a_p|² + |b_q|² - 2·⟨a_p, b_q⟩`, clamped below at zero, and the entry `(p, q)` of the result is minus its
  square root. The squared length of a row is the sum of its squared coordinates started from the zero word, as a
  sum over an axis is; the inner product is the plain sum of products. The two float words that occur, zero and
  two, are kept as words: both programs spell them the same way, so neither is ever evaluated here.
-/
import Idealize.ShloMosaic.PureOps.Ideal
import Idealize.ShloMosaic.PureOps.Ideal.Laws
import Idealize.ShloMosaic.Lib.ValueIdx

noncomputable section

namespace Cert.NegDist

open Idealize.ShloMosaic Idealize.ShloMosaic.ValueIdx

/-- 8192 points, 128 coordinates each. -/
abbrev Pts : Shape := ⟨2, ![8192, 128]⟩
/-- One entry per pair of points. -/
abbrev Pairs : Shape := ⟨2, ![8192, 8192]⟩

/-- The squared length of point `r`: the zero word plus the sum of its squared coordinates. -/
def sqLen (x : FVec Ideal Pts .f32) (r : Fin 8192) : EReal :=
  Ideal.ofBits .f32 0x00000000#32 + ∑ k : Fin 128, x (ix2 r k) * x (ix2 r k)

/-- The inner product of point `p` of `a` with point `q` of `b`. -/
def inner (a b : FVec Ideal Pts .f32) (p q : Fin 8192) : EReal :=
  ∑ k : Fin 128, a (ix2 p k) * b (ix2 q k)

/-- Minus the distance from point `p` of `a` to point `q` of `b`, through the expansion of the square. -/
def entry (a b : FVec Ideal Pts .f32) (p q : Fin 8192) : EReal :=
  -Ideal.sqrt (max (sqLen a p + sqLen b q - Ideal.ofBits .f32 0x40000000#32 * inner a b p q)
    (Ideal.ofBits .f32 0x00000000#32))

/-- The whole matrix of negated distances. -/
def negDist (a b : FVec Ideal Pts .f32) : FVec Ideal Pairs .f32 := fun i => entry a b (i 0) (i 1)

theorem negDist_ix2 (a b : FVec Ideal Pts .f32) (p q : Fin 8192) : negDist a b (ix2 p q) = entry a b p q := rfl

/-- Subtracting from the zero word is negation: the one law that joins a body ending in `0 - √d` to a program
    ending in `-√d`. It holds at every extended real, the infinities included. -/
theorem zero_word_sub (x : EReal) : Ideal.ofBits .f32 0x00000000#32 - x = -x := by
  rw [Ideal.ofBits_zero_f32, zero_sub]

end Cert.NegDist

end
-- ==== Proof.RefNegDist.lean ====
/-
  The reference program computes the negated distance matrix.

  Its twenty-one operations, read one at a time at an entry `(p, q)`: the two squared-length vectors are sums over
  the coordinate axis started from the zero word; each is given a unit axis and spread over the matrix, the first
  down the columns and the second along the rows, so at `(p, q)` they are the squared lengths of point `p` of
  the first set and point `q` of the second; the matrix product contracts the coordinate axis of both arrays, so
  its entry is the inner product of those two points; the rest — doubling, the difference, the clamp at zero, the
  root, the negation — is entry by entry. Every index the operations compose is the pair of a point and a
  coordinate.
-/
import proofs.«136973_j21835613733206_2_alg».proof.Proof.Gen.ReferenceIdeal.Read
import proofs.«136973_j21835613733206_2_alg».proof.Proof.NegDist

noncomputable section

namespace Cert.ReferenceIdeal.RefValue

open Cert.ReferenceIdeal Cert.ReferenceIdeal.Gen Cert.ReferenceIdeal.Read Idealize.ShloMosaic
  Idealize.ShloMosaic.ValueIdx Cert.NegDist

/-- The reference's result, as the last operation leaves it, is the matrix of negated distances of its two
    arguments. -/
theorem result_eq (x0 x1 : FVec Ideal S8192x128 .f32) : val_main_v16 (F := Ideal) x0 x1 = negDist x0 x1 := by
  funext i
  obtain ⟨p, q, rfl⟩ : ∃ (p q : Fin 8192), i = ix2 p q := ⟨i 0, i 1, eq_ix2 i⟩
  have e1 : ∀ k : Fin 128, idx_main_v1 (idx_main_v5 (idx_main_v7 (ix2 p q))) k = ix2 p k := fun k =>
    funext fun a => Fin.ext (by match a with | ⟨0, _⟩ => rfl | ⟨1, _⟩ => rfl)
  have e3 : ∀ k : Fin 128, idx_main_v3 (idx_main_v6 (idx_main_v8 (ix2 p q))) k = ix2 q k := fun k =>
    funext fun a => Fin.ext (by match a with | ⟨0, _⟩ => rfl | ⟨1, _⟩ => rfl)
  have el : ∀ k : Fin 128, lidx_main_v4 (ix2 p q) k = ix2 p k := fun k =>
    funext fun a => Fin.ext (by match a with | ⟨0, _⟩ => rfl | ⟨1, _⟩ => rfl)
  have er : ∀ k : Fin 128, ridx_main_v4 (ix2 p q) k = ix2 q k := fun k =>
    funext fun a => Fin.ext (by match a with | ⟨0, _⟩ => rfl | ⟨1, _⟩ => rfl)
  rw [negDist_ix2, val_main_v16_apply, val_main_v15_apply, val_main_v14_apply, val_main_v12_apply, val_main_v13_apply,
    val_main_cst_2_apply, val_main_v9_apply, val_main_v11_apply, val_main_v10_apply, val_main_cst_1_apply,
    val_main_v7_apply, val_main_v5_apply, val_main_v1_apply, val_main_v8_apply, val_main_v6_apply, val_main_v3_apply,
    val_main_v4_apply, val_main_cst_apply, val_main_cst_0_apply]
  simp only [val_main_v0_apply, val_main_v2_apply, e1, e3, el, er, Ideal.hostNegf_def, Ideal.negf_def,
    Ideal.hostUnary_sqrt_def, Ideal.maximumf_def, Ideal.subf_def, Ideal.addf_def, Ideal.mulf_def, Ideal.ofBits_def]
  rfl

end Cert.ReferenceIdeal.RefValue

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.BlockEntry.lean ====
/-
  One block of the kernel's result, read at an entry.

  The body computes, from a block `rowsA` of 2048 points of the first set, a block `rowsB` of 2048 points of the
  second, the column `lenA` of the first block's squared lengths and the row `lenB` of the second's, the 2048 × 2048
  tile whose entry `(p, q)` is `0 - √(max(lenA p + lenB q - 2·⟨rowsA p, rowsB q⟩, 0))`. The inner products come from
  ONE matrix product that contracts the coordinate axis of BOTH operands (rows against rows) into a zero
  accumulator, so entry `(p, q)` of the product is the plain sum over the 128 coordinates; the column is spread along
  the rows and the row along the columns; everything else is entry by entry. Subtracting from zero is negation.
-/
import proofs.«136973_j21835613733206_2_alg».proof.Proof.Gen.KernelIdeal.Skeleton
import proofs.«136973_j21835613733206_2_alg».proof.Proof.NegDist
import proofs.«136973_j21835613733206_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-- The record of the body's matrix product: axis 1 of the left operand against axis 1 of the right. -/
local notation "D" => dot_S2048x128_S2048x128_S2048x2048_1_1_0_0_n_n

/-- The left operand is read in the row the result's row names, -/
theorem lhs_row (i : S2048x2048.Idx) (k : (D).contr.Idx) : ((D).lhsIdx i k 0).val = (i 0).val := by
  unfold DotDims.lhsIdx
  rw [dif_neg (show ¬(0 : Fin S2048x128.rank) ∈ (D).lhsBatch by decide),
    dif_pos (show (0 : Fin S2048x128.rank) ∈ (D).lhsNonContracting by decide)]
  rfl

/-- and the right operand in the row the result's COLUMN names: rows against rows. -/
theorem rhs_row (i : S2048x2048.Idx) (k : (D).contr.Idx) : ((D).rhsIdx i k 0).val = (i 1).val := by
  unfold DotDims.rhsIdx
  rw [dif_neg (show ¬(0 : Fin S2048x128.rank) ∈ (D).rhsBatch by decide),
    dif_pos (show (0 : Fin S2048x128.rank) ∈ (D).rhsNonContracting by decide)]
  rfl

/-- Entry `(p, q)` of the product into the zero accumulator is the inner product of row `p` of the left operand
    with row `q` of the right one. -/
theorem rows_dot (l r : FVec Ideal S2048x128 .f32) (p q : Fin 2048) :
    matmul (D) (some .fp32) l r (constant S2048x2048 .f32 0x00000000#32) (ix2 p q)
      = ∑ k : Fin 128, l (ix2 p k) * r (ix2 q k) := by
  show FloatOps.matmul (D) (some .fp32) l r (constant S2048x2048 .f32 0x00000000#32) (ix2 p q) = _
  rw [Ideal.matmul_constant_zero_apply, ← Equiv.sum_comp (contrEquiv1 (D) 128 rfl rfl).symm]
  refine Finset.sum_congr rfl fun k _ => ?_
  have hk := contrEquiv1_symm_val (D) 128 rfl rfl k
  have el : (D).lhsIdx (ix2 p q) ((contrEquiv1 (D) 128 rfl rfl).symm k) = ix2 p k := funext fun a => Fin.ext (by
    match a with
    | ⟨0, _⟩ => exact lhs_row _ _
    | ⟨1, _⟩ => exact ((D).lhsIdx_val_of_single rfl _ _).trans hk)
  have er : (D).rhsIdx (ix2 p q) ((contrEquiv1 (D) 128 rfl rfl).symm k) = ix2 q k := funext fun a => Fin.ext (by
    match a with
    | ⟨0, _⟩ => exact rhs_row _ _
    | ⟨1, _⟩ => exact ((D).rhsIdx_val_of_single rfl _ _).trans hk)
  rw [el, er]

/-- The tile at `(p, q)`: minus the root of the clamped `lenA p + lenB q - 2·⟨rowsA p, rowsB q⟩`. -/
theorem tile_apply (rowsB rowsA : FVec Ideal S2048x128 .f32) (lenA : FVec Ideal S2048x1 .f32)
    (lenB : FVec Ideal S1x2048 .f32) (p q : Fin 2048) :
    k0_pay1 (F := Ideal) rowsB rowsA lenA lenB (ix2 p q)
      = -Ideal.sqrt (max (lenA (ix2 p (0 : Fin 1)) + lenB (ix2 (0 : Fin 1) q)
            - Ideal.ofBits .f32 0x40000000#32 * ∑ k : Fin 128, rowsA (ix2 p k) * rowsB (ix2 q k))
          (Ideal.ofBits .f32 0x00000000#32)) := by
  unfold k0_pay1
  show Ideal.ofBits .f32 0x00000000#32 - Ideal.sqrt (max
      (broadcastTo S2048x2048 (shapeCast S2048x1 lenA _) _ (ix2 p q)
          + broadcastTo S2048x2048 (shapeCast S1x2048 lenB _) _ (ix2 p q)
        - Ideal.ofBits .f32 0x40000000#32 * matmul (D) (some .fp32) rowsA rowsB (constant S2048x2048 .f32 0x00000000#32) (ix2 p q))
      (Ideal.ofBits .f32 0x00000000#32)) = _
  rw [Cert.NegDist.zero_word_sub, rows_dot, shapeCast_self, shapeCast_self,
    Cert.LibKeepdims.broadcastTo_a1_ab_apply, broadcastTo_1b_ab_apply]

end Cert.KernelIdeal.Block

end
-- ==== Proof.HostLengths.lean ====
/-
  The squared lengths as the kernel's region finds them.

  Before the region @main squares each coordinate array entry by entry, sums each row over the coordinate axis
  starting from the zero word, and gives the two resulting vectors a unit axis: the first becomes a column
  `[8192, 1]`, the second a row `[1, 8192]`. So the column at `(r, 0)` is the squared length of point `r` of the
  first set, and the row at `(0, r)` that of point `r` of the second.
-/
import proofs.«136973_j21835613733206_2_alg».proof.Proof.Gen.KernelIdeal.Frame
import proofs.«136973_j21835613733206_2_alg».proof.Proof.NegDist
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Lengths

open Cert.KernelIdeal Cert.KernelIdeal.Gen Idealize.ShloMosaic Idealize.ShloMosaic.TcCoe Idealize.SL.Sem
  Idealize.ShloMosaic.StableHlo Idealize.ShloMosaic.ValueIdx Cert.NegDist

variable (m : (ℓ : Loc nD τ sig) → Buf (Elt Ideal) ℓ)

/-- Summing over the coordinate axis reads, at point `r` and coordinate `k`, the entry `(r, k)`. -/
theorem lift_row (h : S8192x128.Reduces [1] S8192) (r : Fin 8192) (k : Fin 128) : h.lift (ix1 r) k = ix2 r k :=
  funext fun a => Fin.ext (by match a with | ⟨0, _⟩ => rfl | ⟨1, _⟩ => rfl)

/-- The host's sum of a row of squares, from the zero word, is the point's squared length. -/
theorem rowSquares_apply (x : FVec Ideal S8192x128 .f32) (r : Fin 8192) :
    Host.reduceAdd (mulf x x) (constant (F := Ideal) S_ .f32 0x00000000#32) reducesTo_S8192x128_S8192_d1 h_S_ (ix1 r)
      = sqLen x r := by
  unfold sqLen
  simp only [Host.reduceAdd, Ideal.hostReduceAdd_def]
  rw [Ideal.hostReduceAdd_single reducesTo_S8192x128_S8192_d1 (by decide)]
  refine congrArg (_ + ·) (Finset.sum_congr rfl fun k _ => ?_)
  exact congrArg (fun j => x j * x j) (lift_row _ r k)

/-- The column the first set's window stages: at `(r, 0)` the squared length of its point `r`. -/
theorem lenA_apply (c : Dev nD) (r : Fin 8192) :
    V m c main_v2 (ix2 r (0 : Fin 1)) = sqLen (m ((c : Thread nD τ).loc main_arg0)) r := by
  have e : (V m c main_v2 : S8192x1.Idx → EReal)
      = broadcastInDim S8192x1 ![0] bcast_S8192_S8192x1_0 (Host.reduceAdd
          (mulf (m ((c : Thread nD τ).loc main_arg0)) (m ((c : Thread nD τ).loc main_arg0)))
          (constant (F := Ideal) S_ .f32 0x00000000#32) reducesTo_S8192x128_S8192_d1 h_S_) := by
    dsimp only [V, hostOps0]; after_results
  rw [e, broadcastInDim_apply _ _ _ (ix2 r (0 : Fin 1)) (ix1 r) (fun a => match a with
    | ⟨0, _⟩ => by show r.val = if (8192 : Nat) = 1 then 0 else r.val; rw [if_neg (by decide)]), rowSquares_apply]

/-- The row the second set's window stages: at `(0, r)` the squared length of its point `r`. -/
theorem lenB_apply (c : Dev nD) (r : Fin 8192) :
    V m c main_v5 (ix2 (0 : Fin 1) r) = sqLen (m ((c : Thread nD τ).loc main_arg1)) r := by
  have e : (V m c main_v5 : S1x8192.Idx → EReal)
      = broadcastInDim S1x8192 ![1] bcast_S8192_S1x8192_1 (Host.reduceAdd
          (mulf (m ((c : Thread nD τ).loc main_arg1)) (m ((c : Thread nD τ).loc main_arg1)))
          (constant (F := Ideal) S_ .f32 0x00000000#32) reducesTo_S8192x128_S8192_d1 h_S_) := by
    dsimp only [V, hostOps0]; after_results
  rw [e, broadcastInDim_apply _ _ _ (ix2 (0 : Fin 1) r) (ix1 r) (fun a => match a with
    | ⟨0, _⟩ => by show r.val = if (8192 : Nat) = 1 then 0 else r.val; rw [if_neg (by decide)]), rowSquares_apply]

end Cert.KernelIdeal.Lengths

end
-- ==== Proof.KernelValue.lean ====
/-
  The kernel's result array is the matrix of negated distances.

  The grid has 4 × 4 points; point `(g, h)` computes the 2048 × 2048 tile of rows `2048·g …` and columns
  `2048·h …` and writes it back to that tile of the result. What the body is handed at the point: rows
  `2048·g …` of the first set and of the column of its squared lengths (both move with `g`), columns `2048·h …`
  of the row of the second set's squared lengths (it moves with `h`), and the WHOLE second set, out of which the
  body itself takes rows `2048·h …` by a slice whose start it computes from `h`. So the tile's entry `(p, q)` is
  the negated distance from point `2048·g + p` of the first set to point `2048·h + q` of the second: the entry
  `(2048·g + p, 2048·h + q)` of the whole matrix. The sixteen tiles cover the result.
-/
import proofs.«136973_j21835613733206_2_alg».proof.Proof.Gen.KernelIdeal.Value
import proofs.«136973_j21835613733206_2_alg».proof.Proof.NegDist
import proofs.«136973_j21835613733206_2_alg».proof.Proof.BlockEntry
import proofs.«136973_j21835613733206_2_alg».proof.Proof.HostLengths
import Idealize.ShloMosaic.Lib.Pipeline.Value
import Idealize.ShloMosaic.Lib.Pipeline.FrameBody
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
  Idealize.ShloMosaic.Tactic Idealize.ShloMosaic.ValueIdx Cert.NegDist
open Idealize.ShloMosaic.Pipeline (Dat)

theorem hz : (![0, 0] : Fin 2 → Nat) = fun _ => 0 := funext fun a => by fin_cases a <;> rfl

/-! ## What one run of the body leaves in the output's staging buffer -/

section AnyInstance
variable {F : FTy → Type} [FloatOps F]

/-- The body's one store covers the whole tile, so the buffer ends holding its payload: the tile computed from the
    block of the first set, the rows of the second set the body slices out of the whole array, and the two blocks
    of squared lengths. -/
theorem tile_eq (c : Dev nD) (i : grid0.Coords) (arg2 : Memref sig .tc .vmem S2048x128 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S1x2048 .f32) (harg5 : arg5.IsWhole) (arg6 : Memref sig .tc .vmem S2048x2048 .f32) (harg6 : arg6.IsWhole)
    (x0 : Vec F S2048x128 .f32) (x1 : Vec F S8192x128 .f32) (x2 : Vec F S2048x1 .f32) (x3 : Vec F S1x2048 .f32) :
    out0_A_4 c i arg2 harg2 arg3 harg3 arg4 harg4 arg5 harg5 arg6 harg6 x0 x1 x2 x3
      = k0_pay1 (View.ld x1 (Rect.unit (s := S8192x128) (k0_off1 i) S2048x128.size (k0_off1_inb i))) x0 x2 x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero hz]
  simp only [View.readAt_eq_ld, harg2.read_unread, harg3.read_unread, harg4.read_unread, harg5.read_unread,
    View.ld_unit_zero (S := S2048x128) hz, View.ld_unit_zero (S := S2048x1) hz, View.ld_unit_zero (S := S1x2048) hz]

end AnyInstance

/-! ## Where each window's block sits, decided over the sixteen points -/

/-- The first set's block and its lengths' block sit at the tile's row block; the second set's lengths at its
    column block; the second set is staged whole; the tile's block indices are below 4; and the grid's second
    coordinate, from which the body computes its slice, is the tile's column block. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3
    ∧ ((grid0.coords t) 1).val = win0_4.index t (1 : Fin 2) :=
  (by decide +kernel : ∀ t : Fin grid0.N, _)

/-- Every tile of the 4 × 4 tiling is some point's. -/
theorem idx_onto : ∀ (g h : Fin 4), ∃ t : Fin cfg0.N, win0_4.index t = ![g.val, h.val] :=
  (by decide +kernel : ∀ (g h : Fin 4), ∃ t : Fin grid0.N, win0_4.index t = ![g.val, h.val])

variable (m : (ℓ : Loc nD τ sig) → Buf (Elt Ideal) ℓ) (ρ : Dev nD → PrngReg)

/-! ## The blocks the body is handed at a point, read at an entry -/

/-- The first set's block: its row `p` is the set's point `P = 2048·g + p`. -/
theorem rowsA_apply (c : Dev nD) (t : Fin cfg0.N) (p : Fin 2048) (k : Fin 128) (P : Fin 8192)
    (hP : P.val = win0_4.index t (0 : Fin 2) * 2048 + p.val) :
    (iblk m c 0 t : Vec Ideal S2048x128 .f32) (ix2 p k) = m ((c : Thread nD τ).loc main_arg0) (ix2 P k) := by
  obtain ⟨e00, e01, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = P.val; omega
  | ⟨1, _⟩ => show win0_0.index t (1 : Fin 2) * 128 + 1 * k.val = k.val; omega

/-- The rows of the second set the body slices out of the whole array, starting at `2048·h`: row `q` is the set's
    point `Q = 2048·h + q`. -/
theorem rowsB_apply (c : Dev nD) (t : Fin cfg0.N) (q : Fin 2048) (k : Fin 128) (Q : Fin 8192)
    (hQ : Q.val = win0_4.index t (1 : Fin 2) * 2048 + q.val) :
    View.ld (iblk m c 1 t : Vec Ideal S8192x128 .f32)
        (Rect.unit (s := S8192x128) (k0_off1 (grid0.coords t)) S2048x128.size (k0_off1_inb (grid0.coords t))) (ix2 q k)
      = m ((c : Thread nD τ).loc main_arg1) (ix2 Q k) := by
  obtain ⟨-, -, e10, e11, -, -, -, -, -, -, ec⟩ := idx_facts t
  have hoff0 : k0_off1 (grid0.coords t) 0 = 2048 * ((grid0.coords t) 1).val := by rw [k0_off1_eq]; rfl
  have hoff1 : k0_off1 (grid0.coords t) 1 = 0 := by rw [k0_off1_eq]; rfl
  show (iblk m c 1 t : Vec Ideal S8192x128 .f32) _ = _
  unfold iblk
  rw [View.read_apply]
  show V m c main_arg1 _ = _
  rw [V_main_arg1]
  refine congrArg _ (funext fun a => Fin.ext ?_)
  match a with
  | ⟨0, _⟩ =>
    show win0_1.index t (0 : Fin 2) * 8192 + 1 * (k0_off1 (grid0.coords t) 0 + 1 * q.val) = Q.val
    omega
  | ⟨1, _⟩ =>
    show win0_1.index t (1 : Fin 2) * 128 + 1 * (k0_off1 (grid0.coords t) 1 + 1 * k.val) = k.val
    omega

/-- The block of the first set's squared lengths: its entry `p` is the squared length of point `P`. -/
theorem lenA_blk (c : Dev nD) (t : Fin cfg0.N) (p : Fin 2048) (P : Fin 8192)
    (hP : P.val = win0_4.index t (0 : Fin 2) * 2048 + p.val) :
    (iblk m c 2 t : Vec Ideal S2048x1 .f32) (ix2 p (0 : Fin 1)) = sqLen (m ((c : Thread nD τ).loc main_arg0)) P := by
  obtain ⟨-, -, -, -, e20, e21, -⟩ := idx_facts t
  unfold iblk
  rw [View.read_apply]
  show V m c main_v2 _ = _
  refine (congrArg (V m c main_v2) (funext fun a => Fin.ext ?_)).trans (Lengths.lenA_apply m c P)
  match a with
  | ⟨0, _⟩ => show win0_2.index t (0 : Fin 2) * 2048 + 1 * p.val = P.val; omega
  | ⟨1, _⟩ => show win0_2.index t (1 : Fin 2) * 1 + 1 * 0 = 0; omega

/-- The block of the second set's squared lengths: its entry `q` is the squared length of point `Q`. -/
theorem lenB_blk (c : Dev nD) (t : Fin cfg0.N) (q : Fin 2048) (Q : Fin 8192)
    (hQ : Q.val = win0_4.index t (1 : Fin 2) * 2048 + q.val) :
    (iblk m c 3 t : Vec Ideal S1x2048 .f32) (ix2 (0 : Fin 1) q) = sqLen (m ((c : Thread nD τ).loc main_arg1)) Q := by
  obtain ⟨-, -, -, -, -, -, e30, e31, -⟩ := idx_facts t
  unfold iblk
  rw [View.read_apply]
  show V m c main_v5 _ = _
  refine (congrArg (V m c main_v5) (funext fun a => Fin.ext ?_)).trans (Lengths.lenB_apply m c Q)
  match a with
  | ⟨0, _⟩ => show win0_3.index t (0 : Fin 2) * 1 + 1 * 0 = 0; omega
  | ⟨1, _⟩ => show win0_3.index t (1 : Fin 2) * 2048 + 1 * q.val = Q.val; omega

/-! ## From the tiles to the array -/

/-- The matrix of negated distances of the two argument arrays, as the contents of the result array. -/
abbrev result (c : Dev nD) : Buf (Elt Ideal) ((c : Thread nD τ).loc main_v6) :=
  negDist (m ((c : Thread nD τ).loc main_arg0)) (m ((c : Thread nD τ).loc main_arg1))

/-- What a point writes back is its tile of the matrix of negated distances. -/
theorem flushed_eq (c : Dev nD) (t : Fin cfg0.N) :
    (dats m 0 c).flushed 4 t = ((cfg0.win 4).blk t).view.read (Elt Ideal) (result m c) := by
  refine (Value.flushed4_A m c t).trans ?_
  refine (congrArg ((cfg0.win 4).cut (grid0.coords t)) (tile_eq c (grid0.coords t) (ms0_0 t) (hs0_0 t) (ms0_1 t) (hs0_1 t)
    (ms0_2 t) (hs0_2 t) (ms0_3 t) (hs0_3 t) (ms0_4 t) (hs0_4 t) (iblk m c 0 t) (iblk m c 1 t) (iblk m c 2 t) (iblk m c 3 t))).trans ?_
  funext j
  obtain ⟨p, q, rfl⟩ : ∃ (p q : Fin 2048), j = ix2 p q := ⟨j 0, j 1, eq_ix2 (n0 := 2048) (n1 := 2048) j⟩
  obtain ⟨-, -, -, -, -, -, -, -, b0, b1, -⟩ := idx_facts t
  have hp := p.isLt
  have hq := q.isLt
  obtain ⟨P, hP⟩ : ∃ P : Fin 8192, P.val = win0_4.index t (0 : Fin 2) * 2048 + p.val := ⟨⟨_, by omega⟩, rfl⟩
  obtain ⟨Q, hQ⟩ : ∃ Q : Fin 8192, Q.val = win0_4.index t (1 : Fin 2) * 2048 + q.val := ⟨⟨_, by omega⟩, rfl⟩
  have hemb : ((cfg0.win 4).blk t).view.emb (ix2 p q) = ix2 P Q := funext fun a => Fin.ext (by
    match a with
    | ⟨0, _⟩ => show win0_4.index t (0 : Fin 2) * 2048 + 1 * p.val = P.val; omega
    | ⟨1, _⟩ => show win0_4.index t (1 : Fin 2) * 2048 + 1 * q.val = Q.val; omega)
  show k0_pay1 (F := Ideal) _ _ _ _ (ix2 p q) = result m c (((cfg0.win 4).blk t).view.emb (ix2 p q))
  rw [hemb]
  refine (Block.tile_apply _ _ _ _ p q).trans ?_
  have hA : ∀ k : Fin 128, (iblk m c 0 t : Vec Ideal S2048x128 .f32) (ix2 p k)
      = m ((c : Thread nD τ).loc main_arg0) (ix2 P k) := fun k => rowsA_apply m c t p k P hP
  have hB : ∀ k : Fin 128, View.ld (iblk m c 1 t : Vec Ideal S8192x128 .f32)
        (Rect.unit (s := S8192x128) (k0_off1 (grid0.coords t)) S2048x128.size (k0_off1_inb (grid0.coords t))) (ix2 q k)
      = m ((c : Thread nD τ).loc main_arg1) (ix2 Q k) := fun k => rowsB_apply m c t q k Q hQ
  simp only [hA, hB, lenA_blk m c t p P hP, lenB_blk m c t q Q hQ]
  rfl

/-- An index of the result lies in a point's tile iff each coordinate lies in the tile's range on its axis. -/
theorem mem_blk (t : Fin cfg0.N) (i : S8192x8192.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v6).slice (win0_4.rect t)).set ↔ _
  rw [View.set_slice_whole, Rect.mem_set_unit]
  exact Iff.rfl

/-- Every entry of the result lies in the tile of the point whose block indices are its coordinates' quotients by 2048. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win0_4.index t (0 : Fin 2) = (i 0).val / 2048 := congrFun ht 0
  have q1 : win0_4.index t (1 : Fin 2) = (i 1).val / 2048 := congrFun ht 1
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 2048 ≤ (i 1).val ∧ (i 1).val < win0_4.index t (1 : Fin 2) * 2048 + 2048
    omega

/-- So the result array ends holding the matrix of negated distances. -/
theorem final (c : Dev nD) : (dats m 0 c).arrAt 4 cfg0.N = result m c :=
  (dats m 0 c).arrAt_eq_of_cover 4 (result m c) (fun t _ => flushed_eq m c t) covered

/-- The kernel's run, read: the result array at the matrix of negated distances of the arguments, the arguments
    unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Whole

end
-- ==== Proof.lean ====
/- The proof of `Cert.Claim`: a kernel that fills the 8192 × 8192 matrix of negated Euclidean distances between two
   sets of 8192 points in 128 coordinates, tile by tile, against the whole-array program that computes the same
   matrix. Both expand the squared distance as `|a|² + |b|² - 2·⟨a, b⟩`, clamp it at zero and negate its root, with
   the same two float words; on the extended reals they are one function of the two arrays (Proof/NegDist.lean),
   and the only law used is that subtracting from zero is negation, which holds at the infinities too — so the
   precondition is never opened. The reference's last operation leaves that function (Proof/RefNegDist.lean); a
   tile of the kernel's result, read at an entry, is that function at the entry's place in the whole matrix
   (Proof/BlockEntry.lean, Proof/HostLengths.lean), and the sixteen tiles cover the result (Proof/KernelValue.lean).
   The three programs run, and leave their arguments as they found them, by their generated frames and the
   reference's generated run; the idealized kernel is the kernel's own text, so nothing is owed for it. -/
import proofs.«136973_j21835613733206_2_alg».proof.Defs
import proofs.«136973_j21835613733206_2_alg».proof.Proof.Gen.Kernel
import proofs.«136973_j21835613733206_2_alg».proof.Proof.Gen.Kernel.Frame
import proofs.«136973_j21835613733206_2_alg».proof.Proof.Gen.KernelIdeal
import proofs.«136973_j21835613733206_2_alg».proof.Proof.Gen.KernelIdeal.Frame
import proofs.«136973_j21835613733206_2_alg».proof.Proof.Gen.KernelIdeal.Value
import proofs.«136973_j21835613733206_2_alg».proof.Proof.Gen.ReferenceIdeal
import proofs.«136973_j21835613733206_2_alg».proof.Proof.Gen.ReferenceIdeal.Run
import proofs.«136973_j21835613733206_2_alg».proof.Proof.Gen.ReferenceIdeal.Read
import proofs.«136973_j21835613733206_2_alg».proof.Proof.Gen.Pre_finite_inputs
import proofs.«136973_j21835613733206_2_alg».proof.Proof.RefNegDist
import proofs.«136973_j21835613733206_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference has no kernel: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the two point sets, both programs end with the matrix of negated distances of
    those sets: the kernel's result array tile by tile, the reference's by its last operation. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
